-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v3) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x4096x2048 : Shape := ⟨3, ![4, 4096, 2048]⟩
abbrev S256x2048 : Shape := ⟨2, ![256, 2048]⟩
abbrev S8192x256 : Shape := ⟨2, ![8192, 256]⟩
abbrev S_ : Shape := ⟨0, ![]⟩

class Facts : Prop where
  bcast_S_S4x4096x2048 : S_.BroadcastsInDim S4x4096x2048 (![] : Fin 0 → Fin S4x4096x2048.rank)
  reducesTo_S4x4096x2048_S_d0_1_2 : S4x4096x2048.ReducesTo [0, 1, 2] S_
  h_S_ : 0 < S_.numel
  bcast_S_S256x2048 : S_.BroadcastsInDim S256x2048 (![] : Fin 0 → Fin S256x2048.rank)
  reducesTo_S256x2048_S_d0_1 : S256x2048.ReducesTo [0, 1] S_
  bcast_S_S8192x256 : S_.BroadcastsInDim S8192x256 (![] : Fin 0 → Fin S8192x256.rank)
  reducesTo_S8192x256_S_d0_1 : S8192x256.ReducesTo [0, 1] S_

variable [Facts]

def fn_part1 {F : FTy → Type} [FloatOps F] (main_v13 : IVec S_ 1) (main_v16 : IVec S8192x256 1) : IVec S_ 1 :=
  let main_c_5 : IVec S_ 1 := constantI S_ 1 1#1
  let main_v17 : IVec S_ 1 := (fun x v => Host.reduce IntOp.andi x v reducesTo_S8192x256_S_d0_1 h_S_) main_v16 main_c_5
  let main_v18 : IVec S_ 1 := andi main_v13 main_v17
  main_v18

def fn {F : FTy → Type} [FloatOps F] (main_arg0 : FVec F S4x4096x2048 .f32) (main_arg1 : FVec F S256x2048 .f32) (main_arg2 : FVec F S8192x256 .f32) (main_arg3 : FVec F S8192x256 .f32) : IVec S_ 1 :=
  let main_v0 : FVec F S4x4096x2048 .f32 := Host.absf main_arg0
  let main_cst : FVec F S_ .f32 := constant S_ .f32 0x7F800000#32
  let main_v1 : FVec F S4x4096x2048 .f32 := broadcastInDim S4x4096x2048 ![] bcast_S_S4x4096x2048 main_cst
  let main_v2 : IVec S4x4096x2048 1 := cmpf .olt main_v0 main_v1
  let main_c : IVec S_ 1 := constantI S_ 1 1#1
  let main_v3 : IVec S_ 1 := (fun x v => Host.reduce IntOp.andi x v reducesTo_S4x4096x2048_S_d0_1_2 h_S_) main_v2 main_c
  let main_v4 : FVec F S256x2048 .f32 := Host.absf main_arg1
  let main_cst_0 : FVec F S_ .f32 := constant S_ .f32 0x7F800000#32
  let main_v5 : FVec F S256x2048 .f32 := broadcastInDim S256x2048 ![] bcast_S_S256x2048 main_cst_0
  let main_v6 : IVec S256x2048 1 := cmpf .olt main_v4 main_v5
  let main_c_1 : IVec S_ 1 := constantI S_ 1 1#1
  let main_v7 : IVec S_ 1 := (fun x v => Host.reduce IntOp.andi x v reducesTo_S256x2048_S_d0_1 h_S_) main_v6 main_c_1
  let main_v8 : IVec S_ 1 := andi main_v3 main_v7
  let main_v9 : FVec F S8192x256 .f32 := Host.absf main_arg2
  let main_cst_2 : FVec F S_ .f32 := constant S_ .f32 0x7F800000#32
  let main_v10 : FVec F S8192x256 .f32 := broadcastInDim S8192x256 ![] bcast_S_S8192x256 main_cst_2
  let main_v11 : IVec S8192x256 1 := cmpf .olt main_v9 main_v10
  let main_c_3 : IVec S_ 1 := constantI S_ 1 1#1
  let main_v12 : IVec S_ 1 := (fun x v => Host.reduce IntOp.andi x v reducesTo_S8192x256_S_d0_1 h_S_) main_v11 main_c_3
  let main_v13 : IVec S_ 1 := andi main_v8 main_v12
  let main_v14 : FVec F S8192x256 .f32 := Host.absf main_arg3
  let main_cst_4 : FVec F S_ .f32 := constant S_ .f32 0x7F800000#32
  let main_v15 : FVec F S8192x256 .f32 := broadcastInDim S8192x256 ![] bcast_S_S8192x256 main_cst_4
  let main_v16 : IVec S8192x256 1 := cmpf .olt main_v14 main_v15
  fn_part1 (F := F) main_v13 main_v16
-- ==== Kernel.lean ====
abbrev S4x4096x2048 : Shape := ⟨3, ![4, 4096, 2048]⟩
abbrev S256x2048 : Shape := ⟨2, ![256, 2048]⟩
abbrev S8192x256 : Shape := ⟨2, ![8192, 256]⟩
abbrev S16384x2048 : Shape := ⟨2, ![16384, 2048]⟩
abbrev S256x8192 : Shape := ⟨2, ![256, 8192]⟩
abbrev S16384x8192 : Shape := ⟨2, ![16384, 8192]⟩
abbrev S512x2048 : Shape := ⟨2, ![512, 2048]⟩
abbrev S512x256 : Shape := ⟨2, ![512, 256]⟩
abbrev S4x4096x8192 : Shape := ⟨3, ![4, 4096, 8192]⟩

abbrev nBuf : Space → Nat
  | .hbm => 10
  | .vmem => 7
  | .smem => 0
  | _ => 0

abbrev bufTy : (tb : Table) → Fin (tcTables nBuf tb) → BufTy
  | .hbm, ⟨0, _⟩ => ⟨S4x4096x2048, .f32⟩
  | .hbm, ⟨1, _⟩ => ⟨S256x2048, .f32⟩
  | .hbm, ⟨2, _⟩ => ⟨S8192x256, .f32⟩
  | .hbm, ⟨3, _⟩ => ⟨S8192x256, .f32⟩
  | .hbm, ⟨4, _⟩ => ⟨S16384x2048, .f32⟩
  | .hbm, ⟨5, _⟩ => ⟨S8192x256, .f32⟩
  | .hbm, ⟨6, _⟩ => ⟨S8192x256, .f32⟩
  | .hbm, ⟨7, _⟩ => ⟨S256x8192, .f32⟩
  | .hbm, ⟨8, _⟩ => ⟨S16384x8192, .f32⟩
  | .hbm, ⟨9, _⟩ => ⟨S4x4096x8192, .f32⟩
  | .local _ .vmem, ⟨0, _⟩ => ⟨S512x2048, .f32⟩
  | .local _ .vmem, ⟨1, _⟩ => ⟨S512x2048, .f32⟩
  | .local _ .vmem, ⟨2, _⟩ => ⟨S256x2048, .f32⟩
  | .local _ .vmem, ⟨3, _⟩ => ⟨S256x8192, .f32⟩
  | .local _ .vmem, ⟨4, _⟩ => ⟨S512x2048, .f32⟩
  | .local _ .vmem, ⟨5, _⟩ => ⟨S512x2048, .f32⟩
  | .local _ .vmem, ⟨6, _⟩ => ⟨S512x256, .f32⟩
  | _, _ => ⟨S4x4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨2, ![32, 4], ![false, false]⟩

def k0_mult1 (i : grid0.Coords) : BitVec 32 :=
  let arg1 : BitVec 32 := BitVec.ofNat 32 (i 1).val
  let c2048_i32 : BitVec 32 := 2048#32
  let v5 : BitVec 32 := Scalar.muli arg1 c2048_i32
  v5
def k0_off1 (i : grid0.Coords) : Fin 2 → Nat :=
  let c0_2 : Index := 0#32
  let arg1 : BitVec 32 := BitVec.ofNat 32 (i 1).val
  let c2048_i32 : BitVec 32 := 2048#32
  let v5 : BitVec 32 := Scalar.muli arg1 c2048_i32
  let v6 : BitVec 32 := v5
  let v7 : Index := Scalar.indexCast v6
  ![0, v7.toNat]
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S256x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S256x8192 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S512x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

class Facts₀ : Prop where
  shapeCasts_S4x4096x2048_S16384x2048 : S4x4096x2048.ShapeCasts S16384x2048
  transposes_S8192x256_S256x8192_1_0 : S8192x256.Transposes [1, 0] S256x8192
  inb_S512x2048_S512x2048_0_0 : ∀ a, (![0, 0] : Fin 2 → Nat) a + S512x2048.size a ≤ S512x2048.size a
  h_S512x2048 : 0 < S512x2048.numel
  shapeCasts_S512x2048_S512x2048 : S512x2048.ShapeCasts S512x2048
  bitsLt_bf16_f32 : FTy.bits .bf16 < FTy.bits .f32
  inb_S256x2048_S256x2048_0_0 : ∀ a, (![0, 0] : Fin 2 → Nat) a + S256x2048.size a ≤ S256x2048.size a
  h_S256x2048 : 0 < S256x2048.numel
  inb_S512x256_S512x256_0_0 : ∀ a, (![0, 0] : Fin 2 → Nat) a + S512x256.size a ≤ S512x256.size a
  h_S512x256 : 0 < S512x256.numel
  shapeCasts_S512x256_S512x256 : S512x256.ShapeCasts S512x256
  shapeCasts_S256x2048_S256x2048 : S256x2048.ShapeCasts S256x2048
  shapeCasts_S16384x8192_S4x4096x8192 : S16384x8192.ShapeCasts S4x4096x8192
  dot_S512x2048_S256x2048_S512x256_1_1_0_0_n_n_wf : DotDims.WF S512x2048 S256x2048 S512x256 [1] [1] [0] [0] [] []
  dot_S512x256_S256x2048_S512x2048_1_0_0_1_n_n_wf : DotDims.WF S512x256 S256x2048 S512x2048 [1] [0] [0] [1] [] []
  hrank0 : 0 < grid0.rank
  k0_mult1_dvd : ∀ i : grid0.Coords, 128 ∣ (k0_mult1 i).toNat
  k0_off1_inb : ∀ i : grid0.Coords, ∀ a, (k0_off1 i) a + S256x2048.size a ≤ S256x8192.size a
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x2048.size a ≤ S16384x2048.size a
  hwx0_0 : ∀ i : grid0.Coords, EltTy.bits .f32 = 32 ∨ (Rect.block (s := S16384x2048) S512x2048.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S256x2048.size a ≤ S256x2048.size a
  hwx0_1 : ∀ i : grid0.Coords, EltTy.bits .f32 = 32 ∨ (Rect.block (s := S256x2048) S256x2048.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S256x8192.size a ≤ S256x8192.size a
  hwx0_2 : ∀ i : grid0.Coords, EltTy.bits .f32 = 32 ∨ (Rect.block (s := S256x8192) S256x8192.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S512x2048.size a ≤ S16384x8192.size a
  hwx0_3 : ∀ i : grid0.Coords, EltTy.bits .f32 = 32 ∨ (Rect.block (s := S16384x8192) S512x2048.size (cc0_transform_3 i) (hinb0_3 i)).WholeWords (EltTy.packing .f32)

variable [Facts₀]

def dot_S512x2048_S256x2048_S512x256_1_1_0_0_n_n : DotDims S512x2048 S256x2048 S512x256 where
  lhsContracting := [1]
  rhsContracting := [1]
  lhsNonContracting := [0]
  rhsNonContracting := [0]
  lhsBatch := []
  rhsBatch := []
  wf := dot_S512x2048_S256x2048_S512x256_1_1_0_0_n_n_wf
def dot_S512x256_S256x2048_S512x2048_1_0_0_1_n_n : DotDims S512x256 S256x2048 S512x2048 where
  lhsContracting := [1]
  rhsContracting := [0]
  lhsNonContracting := [0]
  rhsNonContracting := [1]
  lhsBatch := []
  rhsBatch := []
  wf := dot_S512x256_S256x2048_S512x2048_1_0_0_1_n_n_wf

abbrev win0_0 : Pipeline.Window sig grid0 :=
  Pipeline.Window.ofSpec (Memref.whole main_v0) S512x2048.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S256x2048.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v3) S256x8192.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v4) S512x2048.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S4x4096x2048 : Shape := ⟨3, ![4, 4096, 2048]⟩
abbrev S256x2048 : Shape := ⟨2, ![256, 2048]⟩
abbrev S8192x256 : Shape := ⟨2, ![8192, 256]⟩
abbrev S4x4096x256 : Shape := ⟨3, ![4, 4096, 256]⟩
abbrev S4x4096x8192 : Shape := ⟨3, ![4, 4096, 8192]⟩

abbrev nBuf : Space → Nat
  | .hbm => 8
  | .vmem => 0
  | .smem => 0
  | _ => 0

abbrev bufTy : (tb : Table) → Fin (tcTables nBuf tb) → BufTy
  | .hbm, ⟨0, _⟩ => ⟨S4x4096x2048, .f32⟩
  | .hbm, ⟨1, _⟩ => ⟨S256x2048, .f32⟩
  | .hbm, ⟨2, _⟩ => ⟨S8192x256, .f32⟩
  | .hbm, ⟨3, _⟩ => ⟨S8192x256, .f32⟩
  | .hbm, ⟨4, _⟩ => ⟨S4x4096x256, .f32⟩
  | .hbm, ⟨5, _⟩ => ⟨S8192x256, .f32⟩
  | .hbm, ⟨6, _⟩ => ⟨S8192x256, .f32⟩
  | .hbm, ⟨7, _⟩ => ⟨S4x4096x8192, .f32⟩
  | _, _ => ⟨S4x4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩

abbrev nD : Nat := 1
abbrev τ : Topo := Topo.v7x

variable {F : FTy → Type} [FloatOps F]

class Facts₀ : Prop where
  dot_S4x4096x2048_S256x2048_S4x4096x256_2_1_01_0_n_n_wf : DotDims.WF S4x4096x2048 S256x2048 S4x4096x256 [2] [1] [0, 1] [0] [] []
  dot_S4x4096x256_S8192x256_S4x4096x8192_2_1_01_0_n_n_wf : DotDims.WF S4x4096x256 S8192x256 S4x4096x8192 [2] [1] [0, 1] [0] [] []

variable [Facts₀]

def dot_S4x4096x2048_S256x2048_S4x4096x256_2_1_01_0_n_n : DotDims S4x4096x2048 S256x2048 S4x4096x256 where
  lhsContracting := [2]
  rhsContracting := [1]
  lhsNonContracting := [0, 1]
  rhsNonContracting := [0]
  lhsBatch := []
  rhsBatch := []
  wf := dot_S4x4096x2048_S256x2048_S4x4096x256_2_1_01_0_n_n_wf
def dot_S4x4096x256_S8192x256_S4x4096x8192_2_1_01_0_n_n : DotDims S4x4096x256 S8192x256 S4x4096x8192 where
  lhsContracting := [2]
  rhsContracting := [1]
  lhsNonContracting := [0, 1]
  rhsNonContracting := [0]
  lhsBatch := []
  rhsBatch := []
  wf := dot_S4x4096x256_S8192x256_S4x4096x8192_2_1_01_0_n_n_wf

class Facts : Prop extends Facts₀ where

variable [Facts]
-- ==== Proof.Pieces.lean ====
/-
  What one run of the kernel body leaves behind, as values of what it loaded.

  The body keeps an intermediate block, the "resonance" of the current block of rows, in a buffer that survives from
  one grid point to the next. At the first column tile of a row block it computes that block as the product of the
  row block with the basis and stores it; at every column tile it multiplies the stored block with the tile of the
  weight columns and stores the product as the output block. So the buffer it carries ends at the first product
  (or is left as it was), and the output block ends at the second product of what the buffer holds.
-/
import proofs.«147582_j19301583029003_2_alg».proof.Proof.Gen.KernelIdeal.Frame
import Idealize.ShloMosaic.Lib.Pipeline.Value
import Idealize.ShloMosaic.Lib.Tactic

noncomputable section

namespace Cert.Holo

open Idealize.ShloMosaic Idealize.ShloMosaic.TcCoe Idealize.SL.Sem Cert.KernelIdeal Cert.KernelIdeal.Gen

variable {F : FTy → Type} [FloatOps F]

theorem hz : (![0, 0] : Fin 2 → Nat) = fun _ => 0 := funext fun a => by fin_cases a <;> rfl

/-- The tile of the weight columns the body reads at grid coordinates `i`: all 256 rows, the 2048 columns that
    start at the tile's offset. -/
abbrev wtile (i : grid0.Coords) (x2 : Vec F S256x8192 .f32) : Vec F S256x2048 .f32 :=
  View.ld x2 (Rect.unit (k0_off1 i) S256x2048.size (k0_off1_inb i))

/-- At the first column tile the carried buffer ends at the product of the row block `x0` with the basis `x1`. -/
theorem carried_first (c : Dev nD) (i : grid0.Coords) (a2 : Memref sig .tc .vmem S512x2048 .f32) (h2 : a2.IsWhole)
    (a3 : Memref sig .tc .vmem S256x2048 .f32) (h3 : a3.IsWhole) (a4 : Memref sig .tc .vmem S256x8192 .f32) (h4 : a4.IsWhole)
    (a5 : Memref sig .tc .vmem S512x2048 .f32) (h5 : a5.IsWhole) (a6 : Memref sig .tc .vmem S512x256 .f32) (h6 : a6.IsWhole)
    (hc : cond0_0 i) (x0 : Vec F S512x2048 .f32) (x1 : Vec F S256x2048 .f32) (x2 : Vec F S256x8192 .f32) :
    sout0_A_0 c i a2 h2 a3 h3 a4 h4 a5 h5 a6 h6 hc x0 x1 x2 = k0_pay1 x0 x1 := by
  unfold sout0_A_0
  rw [View.read_writes_eq_canon _ _ _ (scover0_A_0 c i a2 h2 a3 h3 a4 h4 a5 h5 a6 h6 hc x0 x1 x2)]
  unfold kernelRun0_A
  dsimp only
  sl_unfold_run_names
  rw [View.canon_unit_zero hz]
  simp only [View.readAt_eq_ld, h2.read_unread, h3.read_unread, View.ld_unit_zero (S := S512x2048) hz,
    View.ld_unit_zero (S := S256x2048) hz]

/-- At the first column tile the output block ends at the product of that fresh first product with the weight tile:
    the body reads back what it has just stored. -/
theorem out_first (c : Dev nD) (i : grid0.Coords) (a2 : Memref sig .tc .vmem S512x2048 .f32) (h2 : a2.IsWhole)
    (a3 : Memref sig .tc .vmem S256x2048 .f32) (h3 : a3.IsWhole) (a4 : Memref sig .tc .vmem S256x8192 .f32) (h4 : a4.IsWhole)
    (a5 : Memref sig .tc .vmem S512x2048 .f32) (h5 : a5.IsWhole) (a6 : Memref sig .tc .vmem S512x256 .f32) (h6 : a6.IsWhole)
    (hc : cond0_0 i) (x0 : Vec F S512x2048 .f32) (x1 : Vec F S256x2048 .f32) (x2 : Vec F S256x8192 .f32) :
    out0_A_3 c i a2 h2 a3 h3 a4 h4 a5 h5 a6 h6 hc x0 x1 x2 = k0_pay2 (k0_pay1 x0 x1) (wtile i x2) := by
  unfold out0_A_3
  rw [View.read_writes_eq_canon _ _ _ (cover0_A_3 c i a2 h2 a3 h3 a4 h4 a5 h5 a6 h6 hc x0 x1 x2)]
  unfold kernelRun0_A
  dsimp only
  sl_unfold_run_names
  rw [View.canon_unit_zero hz, View.readCov_unit_zero (S := S512x256) _ hz]
  simp only [View.readAt_eq_ld, h2.read_unread, h3.read_unread, h4.read_unread, View.ld_unit_zero (S := S512x2048) hz,
    View.ld_unit_zero (S := S256x2048) hz]

/-- At a later column tile the output block ends at the product of the carried block `xs0` with the weight tile. -/
theorem out_later (c : Dev nD) (i : grid0.Coords) (a2 : Memref sig .tc .vmem S512x2048 .f32) (h2 : a2.IsWhole)
    (a3 : Memref sig .tc .vmem S256x2048 .f32) (h3 : a3.IsWhole) (a4 : Memref sig .tc .vmem S256x8192 .f32) (h4 : a4.IsWhole)
    (a5 : Memref sig .tc .vmem S512x2048 .f32) (h5 : a5.IsWhole) (a6 : Memref sig .tc .vmem S512x256 .f32) (h6 : a6.IsWhole)
    (hc : ¬cond0_0 i) (x0 : Vec F S512x2048 .f32) (x1 : Vec F S256x2048 .f32) (x2 : Vec F S256x8192 .f32)
    (xs0 : Vec F S512x256 .f32) :
    out0_B_3 c i a2 h2 a3 h3 a4 h4 a5 h5 a6 h6 hc x0 x1 x2 xs0 = k0_pay2 xs0 (wtile i x2) := by
  unfold out0_B_3
  rw [View.read_writes_eq_canon _ _ _ (cover0_B_3 c i a2 h2 a3 h3 a4 h4 a5 h5 a6 h6 hc x0 x1 x2 xs0)]
  unfold kernelRun0_B
  dsimp only
  rw [View.canon_unit_zero hz]
  simp only [View.readAt_eq_ld, h6.read_unread, h4.read_unread, View.ld_unit_zero (S := S512x256) hz]

end Cert.Holo

end
-- ==== Proof.Blocks.lean ====
/-
  Where each block sits in its array.

  The grid has 32 × 4 points in row-major order: point t is row block t / 4 and column tile t % 4. The row window's
  block at t is rows 512·(t/4) … of the flattened x; the basis and the weight windows are the whole arrays at every
  point; the body's own slice of the weights takes columns 2048·(t%4) …; and the output window's block at t is rows
  512·(t/4) …, columns 2048·(t%4) … of the output.
-/
import proofs.«147582_j19301583029003_2_alg».proof.Proof.Pieces
import Idealize.ShloMosaic.Lib.ValueIdx

noncomputable section

namespace Cert.Holo

open Idealize.ShloMosaic Idealize.ShloMosaic.TcCoe Idealize.ShloMosaic.ValueIdx Idealize.SL.Sem
open Cert.KernelIdeal Cert.KernelIdeal.Gen

variable {F : FTy → Type} [FloatOps F]
variable (m : (ℓ : Loc nD τ sig) → Buf (Elt F) ℓ)

/-- The printed index maps and the column coordinate, decided once over the 128 grid points. -/
theorem grid_facts : ∀ t : Fin cfg0.N,
    win0_0.index t (0 : Fin 2) = t.val / 4 ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val / 4 ∧ win0_3.index t (1 : Fin 2) = t.val % 4
    ∧ ((grid0.coords t) 1).val = t.val % 4 :=
  (by decide +kernel : ∀ t : Fin grid0.N, _)

/-- The body's slice of the weights at (h, q) is the weight array at (h, 2048 · column tile + q). -/
theorem wtile_apply (i : grid0.Coords) (x2 : Vec F S256x8192 .f32) (h : Fin 256) (q : Fin 2048) (o : Fin 8192)
    (ho : o.val = 2048 * (i 1).val + q.val) : wtile i x2 (ix2 h q) = x2 (ix2 h o) := by
  show x2 ((Rect.unit (s := S256x8192) (k0_off1 i) S256x2048.size (k0_off1_inb i)).idx (ix2 h q)) = x2 (ix2 h o)
  refine congrArg x2 ?_
  funext a
  apply Fin.ext
  match a with
  | ⟨0, _⟩ =>
    show k0_off1 i 0 + 1 * h.val = h.val
    rw [k0_off1_eq]
    show 0 + 1 * h.val = h.val
    omega
  | ⟨1, _⟩ =>
    show k0_off1 i 1 + 1 * q.val = o.val
    rw [k0_off1_eq]
    show 2048 * (i 1).val + 1 * q.val = o.val
    omega

/-- The row window's block at point t, at (p, k), is the flattened x at (512 · (t / 4) + p, k). -/
theorem rows_read (c : Dev nD) (t : Fin cfg0.N) (p : Fin 512) (k : Fin 2048) (r : Fin 16384)
    (hr : r.val = 512 * (t.val / 4) + p.val) :
    (iblk m c 0 t : Vec F S512x2048 .f32) (ix2 p k) = V m c main_v0 (ix2 r k) := by
  obtain ⟨e0, e1, -⟩ := grid_facts t
  have h0 : ((cfg0.win 0).blk t).view.emb (ix2 p k) = (ix2 r k : S16384x2048.Idx) := by
    funext a
    apply Fin.ext
    match a with
    | ⟨0, _⟩ => show win0_0.index t (0 : Fin 2) * 512 + 1 * p.val = r.val; omega
    | ⟨1, _⟩ => show win0_0.index t (1 : Fin 2) * 2048 + 1 * k.val = k.val; omega
  show V m c main_v0 (((cfg0.win 0).blk t).view.emb (ix2 p k)) = V m c main_v0 (ix2 r k)
  rw [h0]

/-- The basis window's block at every point is the basis. -/
theorem basis_read (c : Dev nD) (t : Fin cfg0.N) (h : Fin 256) (k : Fin 2048) :
    (iblk m c 1 t : Vec F S256x2048 .f32) (ix2 h k) = V m c main_arg1 (ix2 h k) := by
  obtain ⟨-, -, e0, e1, -⟩ := grid_facts t
  have h0 : ((cfg0.win 1).blk t).view.emb (ix2 h k) = (ix2 h k : S256x2048.Idx) := by
    funext a
    apply Fin.ext
    match a with
    | ⟨0, _⟩ => show win0_1.index t (0 : Fin 2) * 256 + 1 * h.val = h.val; omega
    | ⟨1, _⟩ => show win0_1.index t (1 : Fin 2) * 2048 + 1 * k.val = k.val; omega
  show V m c main_arg1 (((cfg0.win 1).blk t).view.emb (ix2 h k)) = V m c main_arg1 (ix2 h k)
  rw [h0]

/-- The weight window's block at every point is the transposed weight array. -/
theorem weights_read (c : Dev nD) (t : Fin cfg0.N) (h : Fin 256) (o : Fin 8192) :
    (iblk m c 2 t : Vec F S256x8192 .f32) (ix2 h o) = V m c main_v3 (ix2 h o) := by
  obtain ⟨-, -, -, -, e0, e1, -⟩ := grid_facts t
  have h0 : ((cfg0.win 2).blk t).view.emb (ix2 h o) = (ix2 h o : S256x8192.Idx) := by
    funext a
    apply Fin.ext
    match a with
    | ⟨0, _⟩ => show win0_2.index t (0 : Fin 2) * 256 + 1 * h.val = h.val; omega
    | ⟨1, _⟩ => show win0_2.index t (1 : Fin 2) * 8192 + 1 * o.val = o.val; omega
  show V m c main_v3 (((cfg0.win 2).blk t).view.emb (ix2 h o)) = V m c main_v3 (ix2 h o)
  rw [h0]

end Cert.Holo

end
-- ==== Proof.LibDotSingle.lean ====
/-
  A matrix product with ONE contracted axis, read at an index of the result, over the extended reals.

  Whatever the ranks of the operands and whichever axes are contracted, once the contracted axis has extent `K` and the
  operand indices at the `k`-th contraction coordinate are known (`li k`, `ri k`), the product into a zero accumulator
  is the finite sum `∑ k, x (li k) * w (ri k)`: the accumulator contributes `0`, and the one-axis contraction index is
  its coordinate.
-/
import Idealize.ShloMosaic.Lib.ValueIdx
import Idealize.ShloMosaic.PureOps.Ideal.Laws

namespace Cert.LibDotSingle

open Idealize.ShloMosaic Idealize.ShloMosaic.ValueIdx

/-- A `tpu.matmul` into the zero accumulator whose dimension numbers contract one axis of extent `K`, at the result
    index `j`, is the sum over `k : Fin K` of the left operand at `li k` times the right operand at `ri k`, where
    `li`, `ri` name the operand indices the dimension numbers give at contraction coordinate `k`. -/
theorem matmul_zero_apply {sl sr so : Shape} {φ₁ φ₂ : FTy} (d : DotDims sl sr so) (K : ℕ)
    (hr : d.contr.rank = 1) (hs : d.contr.size ⟨0, by omega⟩ = K) (prec : Option ContractPrecision)
    (x : FVec Ideal sl φ₁) (w : FVec Ideal sr φ₂) (j : so.Idx) (li : Fin K → sl.Idx) (ri : Fin K → sr.Idx)
    (hl : ∀ k, d.lhsIdx j ((contrEquiv1 d K hr hs).symm k) = li k)
    (hri : ∀ k, d.rhsIdx j ((contrEquiv1 d K hr hs).symm k) = ri k) :
    matmul d prec x w (constant (F := Ideal) so .f32 0x00000000#32) j = ∑ k : Fin K, x (li k) * w (ri k) := by
  refine (Ideal.matmul_constant_zero_apply d prec x w j).trans ?_
  refine (Equiv.sum_comp (contrEquiv1 d K hr hs).symm _).symm.trans ?_
  exact Finset.sum_congr rfl fun k _ => by rw [hl k, hri k]

end Cert.LibDotSingle
-- ==== Proof.Dots.lean ====
/-
  The body's two products, read at a row and a column, over the extended reals.

  The first contracts the second axis of the row block [512, 2048] with the second axis of the basis [256, 2048]:
  at (p, h) it is `∑ k, x (p, k) * b (h, k)`. The second contracts the second axis of the carried block [512, 256]
  with the first axis of the weight tile [256, 2048]: at (p, q) it is `∑ h, r (p, h) * w (h, q)`. The roundings to
  bf16 before each product are the identity on the extended reals, and the same-shape casts change nothing.
-/
import proofs.«147582_j19301583029003_2_alg».proof.Proof.Gen.KernelIdeal.Skeleton
import proofs.«147582_j19301583029003_2_alg».proof.Proof.LibDotSingle
import Idealize.ShloMosaic.Lib.Pipeline.Value

noncomputable section

namespace Cert.Holo

open Idealize.ShloMosaic Idealize.ShloMosaic.ValueIdx Cert.KernelIdeal Cert.KernelIdeal.Gen

/-- The first product's operand coordinates: the left operand is read at (row of the result, contraction coordinate),
    the right one at (column of the result, contraction coordinate). -/
theorem dot1_l0 (j : S512x256.Idx) (q : dot_S512x2048_S256x2048_S512x256_1_1_0_0_n_n.contr.Idx) : (dot_S512x2048_S256x2048_S512x256_1_1_0_0_n_n.lhsIdx j q 0).val = (j 0).val := by
  unfold DotDims.lhsIdx
  rw [dif_neg (show ¬(0 : Fin S512x2048.rank) ∈ dot_S512x2048_S256x2048_S512x256_1_1_0_0_n_n.lhsBatch by decide),
    dif_pos (show (0 : Fin S512x2048.rank) ∈ dot_S512x2048_S256x2048_S512x256_1_1_0_0_n_n.lhsNonContracting by decide)]
  rfl
theorem dot1_l1 (j : S512x256.Idx) (q : dot_S512x2048_S256x2048_S512x256_1_1_0_0_n_n.contr.Idx) : (dot_S512x2048_S256x2048_S512x256_1_1_0_0_n_n.lhsIdx j q 1).val = (q ⟨0, by decide⟩).val :=
  dot_S512x2048_S256x2048_S512x256_1_1_0_0_n_n.lhsIdx_val_of_single rfl j q
theorem dot1_r0 (j : S512x256.Idx) (q : dot_S512x2048_S256x2048_S512x256_1_1_0_0_n_n.contr.Idx) : (dot_S512x2048_S256x2048_S512x256_1_1_0_0_n_n.rhsIdx j q 0).val = (j 1).val := by
  unfold DotDims.rhsIdx
  rw [dif_neg (show ¬(0 : Fin S256x2048.rank) ∈ dot_S512x2048_S256x2048_S512x256_1_1_0_0_n_n.rhsBatch by decide),
    dif_pos (show (0 : Fin S256x2048.rank) ∈ dot_S512x2048_S256x2048_S512x256_1_1_0_0_n_n.rhsNonContracting by decide)]
  rfl
theorem dot1_r1 (j : S512x256.Idx) (q : dot_S512x2048_S256x2048_S512x256_1_1_0_0_n_n.contr.Idx) : (dot_S512x2048_S256x2048_S512x256_1_1_0_0_n_n.rhsIdx j q 1).val = (q ⟨0, by decide⟩).val :=
  dot_S512x2048_S256x2048_S512x256_1_1_0_0_n_n.rhsIdx_val_of_single rfl j q

theorem dot1_lhs (p : Fin 512) (h : Fin 256) (k : Fin 2048) :
    dot_S512x2048_S256x2048_S512x256_1_1_0_0_n_n.lhsIdx (ix2 p h) ((contrEquiv1 dot_S512x2048_S256x2048_S512x256_1_1_0_0_n_n 2048 rfl rfl).symm k) = ix2 p k := by
  have hk := contrEquiv1_symm_val dot_S512x2048_S256x2048_S512x256_1_1_0_0_n_n 2048 rfl rfl k
  funext a
  apply Fin.ext
  match a with
  | ⟨0, _⟩ => exact dot1_l0 _ _
  | ⟨1, _⟩ => exact (dot1_l1 _ _).trans hk

theorem dot1_rhs (p : Fin 512) (h : Fin 256) (k : Fin 2048) :
    dot_S512x2048_S256x2048_S512x256_1_1_0_0_n_n.rhsIdx (ix2 p h) ((contrEquiv1 dot_S512x2048_S256x2048_S512x256_1_1_0_0_n_n 2048 rfl rfl).symm k) = ix2 h k := by
  have hk := contrEquiv1_symm_val dot_S512x2048_S256x2048_S512x256_1_1_0_0_n_n 2048 rfl rfl k
  funext a
  apply Fin.ext
  match a with
  | ⟨0, _⟩ => exact dot1_r0 _ _
  | ⟨1, _⟩ => exact (dot1_r1 _ _).trans hk

/-- The second product's operand coordinates: the left operand is read at (row of the result, contraction coordinate),
    the right one at (contraction coordinate, column of the result). -/
theorem dot2_l0 (j : S512x2048.Idx) (q : dot_S512x256_S256x2048_S512x2048_1_0_0_1_n_n.contr.Idx) : (dot_S512x256_S256x2048_S512x2048_1_0_0_1_n_n.lhsIdx j q 0).val = (j 0).val := by
  unfold DotDims.lhsIdx
  rw [dif_neg (show ¬(0 : Fin S512x256.rank) ∈ dot_S512x256_S256x2048_S512x2048_1_0_0_1_n_n.lhsBatch by decide),
    dif_pos (show (0 : Fin S512x256.rank) ∈ dot_S512x256_S256x2048_S512x2048_1_0_0_1_n_n.lhsNonContracting by decide)]
  rfl
theorem dot2_l1 (j : S512x2048.Idx) (q : dot_S512x256_S256x2048_S512x2048_1_0_0_1_n_n.contr.Idx) : (dot_S512x256_S256x2048_S512x2048_1_0_0_1_n_n.lhsIdx j q 1).val = (q ⟨0, by decide⟩).val :=
  dot_S512x256_S256x2048_S512x2048_1_0_0_1_n_n.lhsIdx_val_of_single rfl j q
theorem dot2_r0 (j : S512x2048.Idx) (q : dot_S512x256_S256x2048_S512x2048_1_0_0_1_n_n.contr.Idx) : (dot_S512x256_S256x2048_S512x2048_1_0_0_1_n_n.rhsIdx j q 0).val = (q ⟨0, by decide⟩).val :=
  dot_S512x256_S256x2048_S512x2048_1_0_0_1_n_n.rhsIdx_val_of_single rfl j q
theorem dot2_r1 (j : S512x2048.Idx) (q : dot_S512x256_S256x2048_S512x2048_1_0_0_1_n_n.contr.Idx) : (dot_S512x256_S256x2048_S512x2048_1_0_0_1_n_n.rhsIdx j q 1).val = (j 1).val := by
  unfold DotDims.rhsIdx
  rw [dif_neg (show ¬(1 : Fin S256x2048.rank) ∈ dot_S512x256_S256x2048_S512x2048_1_0_0_1_n_n.rhsBatch by decide),
    dif_pos (show (1 : Fin S256x2048.rank) ∈ dot_S512x256_S256x2048_S512x2048_1_0_0_1_n_n.rhsNonContracting by decide)]
  rfl

theorem dot2_lhs (p : Fin 512) (q : Fin 2048) (h : Fin 256) :
    dot_S512x256_S256x2048_S512x2048_1_0_0_1_n_n.lhsIdx (ix2 p q) ((contrEquiv1 dot_S512x256_S256x2048_S512x2048_1_0_0_1_n_n 256 rfl rfl).symm h) = ix2 p h := by
  have hk := contrEquiv1_symm_val dot_S512x256_S256x2048_S512x2048_1_0_0_1_n_n 256 rfl rfl h
  funext a
  apply Fin.ext
  match a with
  | ⟨0, _⟩ => exact dot2_l0 _ _
  | ⟨1, _⟩ => exact (dot2_l1 _ _).trans hk

theorem dot2_rhs (p : Fin 512) (q : Fin 2048) (h : Fin 256) :
    dot_S512x256_S256x2048_S512x2048_1_0_0_1_n_n.rhsIdx (ix2 p q) ((contrEquiv1 dot_S512x256_S256x2048_S512x2048_1_0_0_1_n_n 256 rfl rfl).symm h) = ix2 h q := by
  have hk := contrEquiv1_symm_val dot_S512x256_S256x2048_S512x2048_1_0_0_1_n_n 256 rfl rfl h
  funext a
  apply Fin.ext
  match a with
  | ⟨0, _⟩ => exact (dot2_r0 _ _).trans hk
  | ⟨1, _⟩ => exact dot2_r1 _ _

/-- The first product at (p, h): the row p of the row block against the row h of the basis. -/
theorem first_product_apply (x0 : Vec Ideal S512x2048 .f32) (x1 : Vec Ideal S256x2048 .f32) (p : Fin 512) (h : Fin 256) :
    k0_pay1 x0 x1 (ix2 p h) = ∑ k : Fin 2048, x0 (ix2 p k) * x1 (ix2 h k) := by
  unfold k0_pay1
  rw [shapeCast_self, shapeCast_self]
  exact Cert.LibDotSingle.matmul_zero_apply dot_S512x2048_S256x2048_S512x256_1_1_0_0_n_n 2048 rfl rfl none _ _ (ix2 p h)
    (fun k => ix2 p k) (fun k => ix2 h k) (dot1_lhs p h) (dot1_rhs p h)

/-- The second product at (p, q): the row p of the carried block against the column q of the weight tile. -/
theorem second_product_apply (v3 : Vec Ideal S512x256 .f32) (v8 : Vec Ideal S256x2048 .f32) (p : Fin 512) (q : Fin 2048) :
    k0_pay2 v3 v8 (ix2 p q) = ∑ h : Fin 256, v3 (ix2 p h) * v8 (ix2 h q) := by
  unfold k0_pay2
  rw [shapeCast_self]
  exact Cert.LibDotSingle.matmul_zero_apply dot_S512x256_S256x2048_S512x2048_1_0_0_1_n_n 256 rfl rfl none _ _ (ix2 p q)
    (fun h => ix2 p h) (fun h => ix2 h q) (dot2_lhs p q) (dot2_rhs p q)

end Cert.Holo

end
-- ==== Proof.Spec.lean ====
/-
  The common value of the two programs, as one function of the four argument arrays.

  With x [4, 4096, 2048], basis [256, 2048], phase and amp [8192, 256]: the resonance of the row (b, s) with harmonic
  h is the inner product of that row of x with row h of the basis; the weight of output o for harmonic h is
  amp (o, h) · cos (phase (o, h)); and the result at (b, s, o) is the sum over the harmonics of resonance times
  weight. Both programs form exactly these two nested sums in this order, so no law beyond the reading of each
  operation at an index joins them: nothing is re-associated and nothing is distributed.
-/
import Idealize.ShloMosaic.PureOps.Ideal
import Idealize.ShloMosaic.Lib.ValueIdx

noncomputable section

namespace Cert.Holo

open Idealize.ShloMosaic Idealize.ShloMosaic.ValueIdx

/-- The inner product of row `r` of a [R, 2048] array with row `h` of a [256, 2048] array. -/
def resAt {R : ℕ} (X : (⟨2, ![R, 2048]⟩ : Shape).Idx → EReal) (B : (⟨2, ![256, 2048]⟩ : Shape).Idx → EReal)
    (r : Fin R) (h : Fin 256) : EReal :=
  ∑ k : Fin 2048, X (ix2 r k) * B (ix2 h k)

/-- Row `r` of the resonances against column `o` of a [256, 8192] weight array given harmonic-major. -/
def outAt {R : ℕ} (X : (⟨2, ![R, 2048]⟩ : Shape).Idx → EReal) (B : (⟨2, ![256, 2048]⟩ : Shape).Idx → EReal)
    (W : (⟨2, ![256, 8192]⟩ : Shape).Idx → EReal) (r : Fin R) (o : Fin 8192) : EReal :=
  ∑ h : Fin 256, resAt X B r h * W (ix2 h o)

/-- The result at (b, s, o) from the four arguments. -/
def holoAt (x : (⟨3, ![4, 4096, 2048]⟩ : Shape).Idx → EReal) (basis : (⟨2, ![256, 2048]⟩ : Shape).Idx → EReal)
    (phase amp : (⟨2, ![8192, 256]⟩ : Shape).Idx → EReal) (b : Fin 4) (s : Fin 4096) (o : Fin 8192) : EReal :=
  ∑ h : Fin 256, (∑ k : Fin 2048, x (ix3 b s k) * basis (ix2 h k))
    * (amp (ix2 o h) * FloatOps.hostUnary (F := Ideal) (φ := .f32) .cos (phase (ix2 o h)))

/-- The result array. -/
def holo (x : (⟨3, ![4, 4096, 2048]⟩ : Shape).Idx → EReal) (basis : (⟨2, ![256, 2048]⟩ : Shape).Idx → EReal)
    (phase amp : (⟨2, ![8192, 256]⟩ : Shape).Idx → EReal) : (⟨3, ![4, 4096, 8192]⟩ : Shape).Idx → EReal :=
  fun i => holoAt x basis phase amp (i 0) (i 1) (i 2)

end Cert.Holo

end
-- ==== Proof.Accum.lean ====
/-
  What the kernel's buffers hold after each grid point, over the extended reals.

  After point t (row block t / 4, column tile t % 4) the carried buffer holds the resonances of row block t / 4 — it was
  computed at the first column tile of that row block and has not been touched since — and the output's staging
  buffer holds, at (p, q), the sum over the harmonics of the resonance of row 512 · (t / 4) + p times the weight at
  column 2048 · (t % 4) + q.
-/
import proofs.«147582_j19301583029003_2_alg».proof.Proof.Blocks
import proofs.«147582_j19301583029003_2_alg».proof.Proof.Dots
import proofs.«147582_j19301583029003_2_alg».proof.Proof.Spec

noncomputable section

namespace Cert.Holo

open Idealize.ShloMosaic Idealize.ShloMosaic.TcCoe Idealize.ShloMosaic.ValueIdx Idealize.SL.Sem
open Cert.KernelIdeal Cert.KernelIdeal.Gen

variable (m : (ℓ : Loc nD τ sig) → Buf (Elt Ideal) ℓ)

/-- The three arrays the region reads, as it finds them: the flattened x, the basis, the transposed weights. -/
abbrev rowsArr (c : Dev nD) : (⟨2, ![16384, 2048]⟩ : Shape).Idx → EReal := V m c main_v0
abbrev basisArr (c : Dev nD) : (⟨2, ![256, 2048]⟩ : Shape).Idx → EReal := V m c main_arg1
abbrev weightArr (c : Dev nD) : (⟨2, ![256, 8192]⟩ : Shape).Idx → EReal := V m c main_v3

/-- The first product of the blocks at point t, at (p, h), is the resonance of row 512 · (t / 4) + p with harmonic h. -/
theorem first_at (c : Dev nD) (t : Fin cfg0.N) (p : Fin 512) (h : Fin 256) (r : Fin 16384)
    (hr : r.val = 512 * (t.val / 4) + p.val) :
    k0_pay1 (iblk m c 0 t) (iblk m c 1 t) (ix2 p h) = resAt (rowsArr m c) (basisArr m c) r h := by
  refine (first_product_apply (iblk m c 0 t) (iblk m c 1 t) p h).trans ?_
  unfold resAt
  exact Finset.sum_congr rfl fun k _ => by rw [rows_read m c t p k r hr, basis_read m c t h k]

/-- At the first column tile of a row block the carried buffer ends at that row block's resonances. -/
theorem carried_at_first (c : Dev nD) (t : Fin cfg0.N) (h0 : t.val % 4 = 0) (p : Fin 512) (h : Fin 256) (r : Fin 16384)
    (hr : r.val = 512 * (t.val / 4) + p.val) :
    ((outsAt0 m c t.val t.isLt).2 : Vec Ideal S512x256 .f32) (ix2 p h) = resAt (rowsArr m c) (basisArr m c) r h := by
  rw [outsAt0_A m c t h0]
  dsimp only
  rw [carried_first]
  exact first_at m c t p h r hr

/-- After every point the carried buffer holds the resonances of the point's row block: by induction on the point, a
    later column tile leaving the buffer as the point before left it, within the same row block. -/
theorem carried_eq (c : Dev nD) (n : ℕ) : ∀ (hn : n < cfg0.N) (p : Fin 512) (h : Fin 256) (r : Fin 16384),
    r.val = 512 * (n / 4) + p.val →
    ((outsAt0 m c n hn).2 : Vec Ideal S512x256 .f32) (ix2 p h) = resAt (rowsArr m c) (basisArr m c) r h := by
  induction n using Nat.strong_induction_on with
  | _ n ih =>
    intro hn p h r hr
    by_cases h0 : n % 4 = 0
    · exact carried_at_first m c ⟨n, hn⟩ h0 p h r hr
    · rw [outsAt0_B m c ⟨n, hn⟩ h0]
      dsimp only
      unfold sout0_B_0
      exact ih (n - 1) (by omega) _ p h r (by omega)

/-- After point t the output's staging buffer holds, at (p, q), the result for row 512 · (t / 4) + p and column
    2048 · (t % 4) + q. -/
theorem out_eq (c : Dev nD) (t : Fin cfg0.N) (p : Fin 512) (q : Fin 2048) (r : Fin 16384) (o : Fin 8192)
    (hr : r.val = 512 * (t.val / 4) + p.val) (ho : o.val = 2048 * (t.val % 4) + q.val) :
    ((outsAt0 m c t.val t.isLt).1 : Vec Ideal S512x2048 .f32) (ix2 p q)
      = outAt (rowsArr m c) (basisArr m c) (weightArr m c) r o := by
  have hcol : ((grid0.coords t) 1).val = t.val % 4 := (grid_facts t).2.2.2.2.2.2.2.2
  have ho' : o.val = 2048 * ((grid0.coords t) 1).val + q.val := by rw [hcol]; exact ho
  by_cases h0 : t.val % 4 = 0
  · rw [outsAt0_A m c t h0]
    dsimp only
    rw [out_first]
    refine (second_product_apply _ _ p q).trans ?_
    unfold outAt
    refine Finset.sum_congr rfl fun h _ => ?_
    rw [wtile_apply (grid0.coords t) (iblk m c 2 t) h q o ho', weights_read m c t h o, first_at m c t p h r hr]
  · rw [outsAt0_B m c t h0]
    dsimp only
    rw [out_later]
    refine (second_product_apply _ _ p q).trans ?_
    unfold outAt
    refine Finset.sum_congr rfl fun h _ => ?_
    rw [wtile_apply (grid0.coords t) (iblk m c 2 t) h q o ho', weights_read m c t h o,
      carried_eq m c (t.val - 1) _ p h r (by omega)]

end Cert.Holo

end
-- ==== Proof.Final.lean ====
/-
  The output array after the run.

  Every grid point writes its staging buffer back to its own block of the [16384, 8192] output — rows 512 · (t / 4) …,
  columns 2048 · (t % 4) … — and what it writes is that block of ONE function of the array index: the result for that
  row and column. The 32 × 4 blocks tile the array (the point that holds row r and column o is 4 · (r / 512) +
  o / 2048), so the array ends holding that function.
-/
import proofs.«147582_j19301583029003_2_alg».proof.Proof.Accum
import Idealize.ShloMosaic.Lib.Pipeline.Value

noncomputable section

namespace Cert.Holo

open Idealize.ShloMosaic Idealize.ShloMosaic.TcCoe Idealize.ShloMosaic.ValueIdx Idealize.SL.Sem
open Idealize.ShloMosaic.Pipeline (Dat)
open Cert.KernelIdeal Cert.KernelIdeal.Gen

variable (m : (ℓ : Loc nD τ sig) → Buf (Elt Ideal) ℓ)

/-- The output array as one function of its index: the result for that row and column. -/
def outArr (c : Dev nD) : (⟨2, ![16384, 8192]⟩ : Shape).Idx → EReal :=
  fun i => outAt (rowsArr m c) (basisArr m c) (weightArr m c) (i 0) (i 1)

/-- What point t leaves at (p, q) of its staging buffer is the function at the array index under (p, q) of block t. -/
theorem flushed_at (c : Dev nD) (t : Fin cfg0.N) (p : Fin 512) (q : Fin 2048) :
    ((outsAt0 m c t.val t.isLt).1 : Vec Ideal S512x2048 .f32) (ix2 p q)
      = outArr m c (((cfg0.win 3).blk t).view.emb (ix2 p q)) := by
  obtain ⟨-, -, -, -, -, -, e0, e1, -⟩ := grid_facts t
  have hN : cfg0.N = 128 := N_0
  have ht : t.val < 128 := lt_of_lt_of_eq t.isLt hN
  have hp : 512 * (t.val / 4) + p.val < 16384 := by omega
  have hq : 2048 * (t.val % 4) + q.val < 8192 := by omega
  have h0 : ((cfg0.win 3).blk t).view.emb (ix2 p q)
      = (ix2 ⟨512 * (t.val / 4) + p.val, hp⟩ ⟨2048 * (t.val % 4) + q.val, hq⟩ : S16384x8192.Idx) := by
    funext a
    apply Fin.ext
    match a with
    | ⟨0, _⟩ => show win0_3.index t (0 : Fin 2) * 512 + 1 * p.val = 512 * (t.val / 4) + p.val; omega
    | ⟨1, _⟩ => show win0_3.index t (1 : Fin 2) * 2048 + 1 * q.val = 2048 * (t.val % 4) + q.val; omega
  rw [h0]
  exact out_eq m c t p q _ _ rfl rfl

/-- What point t writes back is block t of the function. -/
theorem flushed_eq (c : Dev nD) (t : Fin cfg0.N) :
    (dats m 0 c).flushed 3 t = ((cfg0.win 3).blk t).view.read (Elt Ideal) (outArr m c) := by
  show (cfg0.win 3).cut (grid0.coords t) ((dats m 0 c).after 3 t) = _
  rw [after0_3]
  funext y
  obtain ⟨p, q, rfl⟩ : ∃ (p : Fin 512) (q : Fin 2048), y = ix2 p q := ⟨y 0, y 1, eq_ix2 y⟩
  exact flushed_at m c t p q

/-- An index of the output is in point t's block iff each coordinate is in the block's range on its axis. -/
theorem mem_blk (t : Fin cfg0.N) (i : S16384x8192.Idx) :
    i ∈ ((cfg0.win 3).blk t).view.set ↔ ∀ a : Fin 2, win0_3.index t a * S512x2048.size a ≤ (i a).val
      ∧ (i a).val < win0_3.index t a * S512x2048.size a + S512x2048.size a := by
  show i ∈ ((View.whole main_v4).slice (win0_3.rect t)).set ↔ _
  rw [View.set_slice_whole, Rect.mem_set_unit]
  exact Iff.rfl

/-- Every index of the output is in some point's block: row r and column o are in the block of point
    4 · (r / 512) + o / 2048. -/
theorem covered (i : S16384x8192.Idx) :
    ∃ t : Fin cfg0.N, (cfg0.win 3).flush t = true ∧ i ∈ ((cfg0.win 3).blk t).view.set := by
  have hi0 : (i 0).val < 16384 := idx2_lt0 i
  have hi1 : (i 1).val < 8192 := idx2_lt1 i
  have hN : cfg0.N = 128 := N_0
  obtain ⟨t, ht⟩ : ∃ t : Fin cfg0.N, t.val = 4 * ((i 0).val / 512) + (i 1).val / 2048 := ⟨⟨_, by omega⟩, rfl⟩
  obtain ⟨-, -, -, -, -, -, e0, e1, -⟩ := grid_facts t
  refine ⟨t, flush0_3 t, ?_⟩
  rw [mem_blk]
  intro a
  match a with
  | ⟨0, _⟩ =>
    show win0_3.index t (0 : Fin 2) * 512 ≤ (i 0).val ∧ (i 0).val < win0_3.index t (0 : Fin 2) * 512 + 512
    omega
  | ⟨1, _⟩ =>
    show win0_3.index t (1 : Fin 2) * 2048 ≤ (i 1).val ∧ (i 1).val < win0_3.index t (1 : Fin 2) * 2048 + 2048
    omega

/-- So the output array ends holding the function. -/
theorem final (c : Dev nD) : (dats m 0 c).arrAt 3 cfg0.N = outArr m c :=
  (dats m 0 c).arrAt_eq_of_cover 3 (outArr m c) (fun t _ => flushed_eq m c t) covered

end Cert.Holo

end
-- ==== Proof.LibFlatten.lean ====
/-
  Merging and splitting the two leading axes of a rank-3 array, read at an index written by coordinates.

  A [a, b, c] array re-read as [n, c] with n = a · b, and back: the entry at (i, j, k) is the entry at (i · b + j, k),
  both having row-major position (i · b + j) · c + k.
-/
import Idealize.ShloMosaic.Lib.Pipeline.Value
import Idealize.ShloMosaic.Lib.ValueIdx

namespace Cert.LibFlatten

open Idealize.ShloMosaic Idealize.ShloMosaic.ValueIdx

variable {α : Type}

/-- A `[a, b, c]` array cast to `[n, c]` reads, at `(r, k)` with `r = i · b + j`, the operand at `(i, j, k)`. -/
theorem shapeCast_merge_apply {a b c n : ℕ} (x : (⟨3, ![a, b, c]⟩ : Shape).Idx → α)
    (h : (⟨3, ![a, b, c]⟩ : Shape).ShapeCasts ⟨2, ![n, c]⟩) (r : Fin n) (k : Fin c) (i : Fin a) (j : Fin b)
    (hr : r.val = i.val * b + j.val) : shapeCast ⟨2, ![n, c]⟩ x h (ix2 r k) = x (ix3 i j k) :=
  shapeCast_apply x h _ _ (by
    rw [Shape.rowMajor_val_three, Shape.rowMajor_val_two]
    show (i.val * b + j.val) * c + k.val = r.val * c + k.val
    rw [hr])

/-- A `[n, c]` array cast to `[a, b, c]` reads, at `(i, j, k)`, the operand at `(r, k)` with `r = i · b + j`. -/
theorem shapeCast_split_apply {a b c n : ℕ} (x : (⟨2, ![n, c]⟩ : Shape).Idx → α)
    (h : (⟨2, ![n, c]⟩ : Shape).ShapeCasts ⟨3, ![a, b, c]⟩) (i : Fin a) (j : Fin b) (k : Fin c) (r : Fin n)
    (hr : r.val = i.val * b + j.val) : shapeCast ⟨3, ![a, b, c]⟩ x h (ix3 i j k) = x (ix2 r k) :=
  shapeCast_apply x h _ _ (by
    rw [Shape.rowMajor_val_three, Shape.rowMajor_val_two]
    show r.val * c + k.val = (i.val * b + j.val) * c + k.val
    rw [hr])

end Cert.LibFlatten
-- ==== Proof.Bridge.lean ====
/-
  From the flat output array back to the arguments.

  The kernel works on x with its two leading axes merged (row b · 4096 + s), on the weights amp · cos(phase) transposed
  to harmonic-major order, and its [16384, 8192] output is split back to [4, 4096, 8192]. Read at (b, s, o), the split
  output is the flat result at row b · 4096 + s; that row of the merged x is row (b, s) of x; and the transposed weight
  at (h, o) is amp (o, h) · cos (phase (o, h)). So the split output at (b, s, o) is the common value there.
-/
import proofs.«147582_j19301583029003_2_alg».proof.Proof.Spec
import proofs.«147582_j19301583029003_2_alg».proof.Proof.LibFlatten
import Idealize.ShloMosaic.Lib.ValueLayout

noncomputable section

namespace Cert.Holo

open Idealize.ShloMosaic Idealize.ShloMosaic.ValueIdx

theorem split_flat_eq (x0 : (⟨3, ![4, 4096, 2048]⟩ : Shape).Idx → EReal) (bs : (⟨2, ![256, 2048]⟩ : Shape).Idx → EReal)
    (ph am : (⟨2, ![8192, 256]⟩ : Shape).Idx → EReal)
    (h1 : (⟨3, ![4, 4096, 2048]⟩ : Shape).ShapeCasts ⟨2, ![16384, 2048]⟩)
    (h2 : (⟨2, ![8192, 256]⟩ : Shape).Transposes [1, 0] ⟨2, ![256, 8192]⟩)
    (h3 : (⟨2, ![16384, 8192]⟩ : Shape).ShapeCasts ⟨3, ![4, 4096, 8192]⟩)
    (b : Fin 4) (s : Fin 4096) (o : Fin 8192) :
    shapeCast ⟨3, ![4, 4096, 8192]⟩
        (fun i : (⟨2, ![16384, 8192]⟩ : Shape).Idx => outAt (shapeCast ⟨2, ![16384, 2048]⟩ x0 h1) bs
          (transpose ⟨2, ![256, 8192]⟩ [1, 0]
            (fun j => am j * FloatOps.hostUnary (F := Ideal) (φ := .f32) .cos (ph j)) h2) (i 0) (i 1))
        h3 (ix3 b s o)
      = holoAt x0 bs ph am b s o := by
  have hr : b.val * 4096 + s.val < 16384 := by omega
  refine (Cert.LibFlatten.shapeCast_split_apply _ h3 b s o ⟨b.val * 4096 + s.val, hr⟩ rfl).trans ?_
  show outAt _ bs _ ⟨b.val * 4096 + s.val, hr⟩ o = _
  unfold outAt resAt holoAt
  refine Finset.sum_congr rfl fun h _ => ?_
  rw [transpose_ix2_apply]
  refine congrArg (· * _) (Finset.sum_congr rfl fun k _ => ?_)
  rw [Cert.LibFlatten.shapeCast_merge_apply x0 h1 ⟨b.val * 4096 + s.val, hr⟩ k b s rfl]

end Cert.Holo

end
-- ==== Proof.KernelRun.lean ====
/-
  The kernel program's run, read: its result array ends at the common value of the arguments.

  Before the region the host flattens x, takes amp · cos(phase) and transposes it; the region leaves the flat output
  array (the function of the three arrays it read); after the region the host splits the flat output's rows back
  into (batch, position).
-/
import proofs.«147582_j19301583029003_2_alg».proof.Proof.Final
import proofs.«147582_j19301583029003_2_alg».proof.Proof.Bridge
import Idealize.ShloMosaic.Lib.StableHlo.Run

noncomputable section

namespace Cert.Holo

open Idealize.ShloMosaic Idealize.ShloMosaic.TcCoe Idealize.ShloMosaic.ValueIdx Idealize.SL.Sem
open Idealize.ShloMosaic.Pipeline (Dat)
open Cert.KernelIdeal Cert.KernelIdeal.Gen

variable (m : (ℓ : Loc nD τ sig) → Buf (Elt Ideal) ℓ) (ρ : Dev nD → PrngReg)

/-- The region finds x with its two leading axes merged. -/
theorem rows_entry (c : Dev nD) : rowsArr m c
    = shapeCast S16384x2048 (m ((c : Thread nD τ).loc main_arg0)) shapeCasts_S4x4096x2048_S16384x2048 := by
  show StableHlo.after hostOps0 (fun b => m (c, b)) (Proc.devRef .tc main_v0) = _
  after_results
  rfl

/-- It finds the basis as launched. -/
theorem basis_entry (c : Dev nD) : basisArr m c = m ((c : Thread nD τ).loc main_arg1) := V_main_arg1 m c

/-- The weights amp · cos(phase), transposed to harmonic-major order. -/
def weightsT (ph am : S8192x256.Idx → EReal) : S256x8192.Idx → EReal :=
  transpose S256x8192 [1, 0] (fun j => am j * FloatOps.hostUnary (F := Ideal) (φ := .f32) .cos (ph j))
    transposes_S8192x256_S256x8192_1_0

/-- The region finds them so. -/
theorem weights_entry (c : Dev nD) : weightArr m c
    = weightsT (m ((c : Thread nD τ).loc main_arg2)) (m ((c : Thread nD τ).loc main_arg3)) := by
  show StableHlo.after hostOps0 (fun b => m (c, b)) (Proc.devRef .tc main_v3) = _
  after_results
  rfl

/-- The program's result: the flat output array, as the region leaves it, with its rows split back. -/
theorem tail_eq (c : Dev nD) : Pipeline.afterTail₀ cfgs (dats m) 0 (V0 m) [hostOps1] c main_v5
    = shapeCast S4x4096x8192 (outArr m c) shapeCasts_S16384x8192_S4x4096x8192 := by
  have e : Pipeline.withArrays (cfgs 0).spec c (V0 m c) (fun w => (dats m 0 c).arrAt w (cfgs 0).N)
      (Proc.devRef .tc main_v4) = outArr m c :=
    (Pipeline.withArrays_arr spec0 launch0.win.arr_inj c _ _ 3).trans (final m c)
  unfold Pipeline.afterTail₀
  show StableHlo.after hostOps1 _ (Proc.devRef .tc main_v5) = _
  after_results
  rw [e]
  rfl

/-- … which is the common value of the four arguments. -/
theorem result_eq (c : Dev nD) : Pipeline.afterTail₀ cfgs (dats m) 0 (V0 m) [hostOps1] c main_v5
    = holo (m ((c : Thread nD τ).loc main_arg0)) (m ((c : Thread nD τ).loc main_arg1))
        (m ((c : Thread nD τ).loc main_arg2)) (m ((c : Thread nD τ).loc main_arg3)) := by
  rw [tail_eq]
  funext i
  obtain ⟨b, s, o, rfl⟩ : ∃ (b : Fin 4) (s : Fin 4096) (o : Fin 8192), i = ix3 b s o := ⟨i 0, i 1, i 2, eq_ix3 i⟩
  unfold outArr
  rw [rows_entry, basis_entry, weights_entry]
  unfold weightsT holo
  exact split_flat_eq _ _ _ _ _ _ _ b s o

/-- The run: every weakly fair execution ends with the result array at the common value and the arguments unchanged. -/
theorem run : θ_run defs (onTc (τ := τ) (main (F := Ideal))) ⟨m, fun _ => 0, ρ⟩ fun r => ∀ c : Dev nD,
      r.2.mem ((c : Thread nD τ).loc main_v5)
        = holo (m ((c : Thread nD τ).loc main_arg0)) (m ((c : Thread nD τ).loc main_arg1))
            (m ((c : Thread nD τ).loc main_arg2)) (m ((c : Thread nD τ).loc main_arg3))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun _ h c =>
    ⟨((h c).2 main_v5 (Pipeline.mem_restRefs_of main_v5 (by decide) (by decide))).trans (result_eq m c),
      ((h c).2 main_arg0 (Pipeline.mem_restRefs_of main_arg0 (by decide) (by decide))).trans (W_main_arg0 m (dats m) c),
      ((h c).1 1).trans (((dats m 0 c).arrAt_in 1 rfl _).trans ((A_eq m c 1).trans (V_main_arg1 m c))),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c)⟩)
    (run_main m ρ)

end Cert.Holo

end
-- ==== Proof.RefValue.lean ====
/-
  The reference computes the common value.

  Its four operations — the contraction of x with the basis over the input features, the cosine of the phases, the
  product with the amplitudes, the contraction of the resonances with the weights over the harmonics — read at
  (b, s, o) are, in this order, the two nested sums of the common value.
-/
import proofs.«147582_j19301583029003_2_alg».proof.Proof.Gen.ReferenceIdeal.Read
import proofs.«147582_j19301583029003_2_alg».proof.Proof.Spec

noncomputable section

namespace Cert.Holo

open Idealize.ShloMosaic Idealize.ShloMosaic.ValueIdx Cert.ReferenceIdeal Cert.ReferenceIdeal.Read

theorem reference_eq (x0 : (⟨S4x4096x2048, .f32⟩ : BufTy).Contents (Elt Ideal)) (x1 : (⟨S256x2048, .f32⟩ : BufTy).Contents (Elt Ideal))
    (x2 x3 : (⟨S8192x256, .f32⟩ : BufTy).Contents (Elt Ideal)) :
    val_main_v3 (F := Ideal) x0 x1 x2 x3 = holo x0 x1 x2 x3 := by
  funext i
  obtain ⟨b, s, o, rfl⟩ : ∃ (b : Fin 4) (s : Fin 4096) (o : Fin 8192), i = ix3 b s o := ⟨i 0, i 1, i 2, eq_ix3 i⟩
  rw [val_main_v3_apply]
  show _ = holoAt x0 x1 x2 x3 b s o
  unfold holoAt
  refine Finset.sum_congr rfl fun h _ => ?_
  have e1 : lidx_main_v3 (ix3 b s o) h = ix3 b s h :=
    funext fun a => Fin.ext (by match a with | ⟨0, _⟩ => rfl | ⟨1, _⟩ => rfl | ⟨2, _⟩ => rfl)
  have e2 : ridx_main_v3 (ix3 b s o) h = ix2 o h :=
    funext fun a => Fin.ext (by match a with | ⟨0, _⟩ => rfl | ⟨1, _⟩ => rfl)
  have e3 : ∀ k : Fin 2048, lidx_main_v0 (ix3 b s h) k = ix3 b s k := fun k =>
    funext fun a => Fin.ext (by match a with | ⟨0, _⟩ => rfl | ⟨1, _⟩ => rfl | ⟨2, _⟩ => rfl)
  have e4 : ∀ k : Fin 2048, ridx_main_v0 (ix3 b s h) k = ix2 h k := fun k =>
    funext fun a => Fin.ext (by match a with | ⟨0, _⟩ => rfl | ⟨1, _⟩ => rfl)
  rw [e1, e2, val_main_v0_apply, val_main_v2_apply, val_main_v1_apply]
  simp only [e3, e4]
  rfl

end Cert.Holo

end
-- ==== Proof.lean ====
/-
  The kernel and its reference compute one function over the extended reals.

  With x [4, 4096, 2048], basis [256, 2048], phase and amp [8192, 256], both programs return, at (b, s, o),

      ∑ h, (∑ k, x (b, s, k) · basis (h, k)) · (amp (o, h) · cos (phase (o, h))).

  The reference does it with two contractions on the host. The kernel flattens the rows of x, transposes the weights
  amp · cos(phase), and runs a 32 × 4 grid: at the first column tile of each block of 512 rows it computes the block's
  resonances (the inner sums) into a buffer it keeps for the next three points, and at every point it multiplies that
  buffer with a tile of 2048 weight columns into the point's output block; the host then splits the rows back. The
  roundings to bf16 before each product are the identity on the extended reals, a product into a zero accumulator is
  the plain sum, and both sides form the same two nested sums in the same order, so the equality holds at every
  input, the infinities included: the precondition is never opened.

  The three frames are the generated ones (the reference's is its generated run with the result dropped); the ideal
  pass rewrote nothing, so there is nothing to preserve.
-/
import proofs.«147582_j19301583029003_2_alg».proof.Defs
import proofs.«147582_j19301583029003_2_alg».proof.Proof.Gen.Kernel
import proofs.«147582_j19301583029003_2_alg».proof.Proof.Gen.Kernel.Skeleton
import proofs.«147582_j19301583029003_2_alg».proof.Proof.Gen.Kernel.Launch
import proofs.«147582_j19301583029003_2_alg».proof.Proof.Gen.Kernel.Points
import proofs.«147582_j19301583029003_2_alg».proof.Proof.Gen.Kernel.Frame
import proofs.«147582_j19301583029003_2_alg».proof.Proof.Gen.KernelIdeal
import proofs.«147582_j19301583029003_2_alg».proof.Proof.Gen.KernelIdeal.Skeleton
import proofs.«147582_j19301583029003_2_alg».proof.Proof.Gen.KernelIdeal.Launch
import proofs.«147582_j19301583029003_2_alg».proof.Proof.Gen.KernelIdeal.Points
import proofs.«147582_j19301583029003_2_alg».proof.Proof.Gen.KernelIdeal.Frame
import proofs.«147582_j19301583029003_2_alg».proof.Proof.Gen.ReferenceIdeal
import proofs.«147582_j19301583029003_2_alg».proof.Proof.Gen.ReferenceIdeal.Run
import proofs.«147582_j19301583029003_2_alg».proof.Proof.Gen.ReferenceIdeal.Read
import proofs.«147582_j19301583029003_2_alg».proof.Proof.Gen.Pre_finite_inputs
import proofs.«147582_j19301583029003_2_alg».proof.Proof.KernelRun
import proofs.«147582_j19301583029003_2_alg».proof.Proof.RefValue
import Idealize.ShloMosaic.Adequacy
import Idealize.ShloMosaic.Init

noncomputable section

namespace Cert.Proof

open Idealize.ShloMosaic Idealize.SL.Sem

theorem frame_k : Cert.frame_Kernel := fun m ρ _ => Cert.Kernel.Gen.frame m ρ

theorem frame_ki : Cert.frame_KernelIdeal := fun m ρ _ => Cert.KernelIdeal.Gen.frame m ρ

theorem frame_ri : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- Both runs end at the common value of arguments that agree. -/
theorem algebraic : Cert.algebraic_KernelIdeal_ReferenceIdeal := by
  intro m ρ m' ρ' _ hagree
  refine ⟨_, Cert.Holo.run m ρ, ?_⟩
  refine (θ_run Cert.ReferenceIdeal.defs _ _).mono (fun _ h c => ⟨?_, (h c).2⟩)
    (Cert.ReferenceIdeal.Value.run (F := Ideal) m' ρ')
  rw [(h c).1, Cert.ReferenceIdeal.Read.val_main_v3_eq, Cert.Holo.reference_eq, (hagree c).1, (hagree c).2.1,
    (hagree c).2.2.1, (hagree c).2.2.2]

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
